-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 11
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .bf16⟩
  | .hbm, ⟨9, _⟩ => ⟨S10000x128, .bf16⟩
  | .hbm, ⟨10, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S400x10000, .f32⟩
  | .local _ .vmem, ⟨4, _⟩ => ⟨S400x10000, .f32⟩
  | .local _ .vmem, ⟨5, _⟩ => ⟨S10000x128, .bf16⟩
  | .local _ .vmem, ⟨6, _⟩ => ⟨S1x128, .f32⟩
  | .local _ .vmem, ⟨7, _⟩ => ⟨S128x128, .f32⟩
  | .local _ .vmem, ⟨8, _⟩ => ⟨S400x128, .bf16⟩
  | .local _ .vmem, ⟨9, _⟩ => ⟨S400x128, .bf16⟩
  | .local _ .vmem, ⟨10, _⟩ => ⟨S400x10000, .f32⟩
  | .local _ .vmem, ⟨11, _⟩ => ⟨S400x10000, .f32⟩
  | .local _ .vmem, ⟨12, _⟩ => ⟨S10000x128, .bf16⟩
  | .local _ .vmem, ⟨13, _⟩ => ⟨S1x128, .f32⟩
  | .local _ .vmem, ⟨14, _⟩ => ⟨S400x128, .f32⟩
  | .local _ .vmem, ⟨15, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  reduces_S400x128_S400 : S400x128.Reduces [1] S400
  shapeCasts_S400_S400x1 : S400.ShapeCasts S400x1
  broadcasts_S400x1_S400x128 : S400x1.Broadcasts S400x128
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .bf16 = 32 ∨ (Rect.block (s := S10000x128) S400x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x128.size a ≤ S10000x128.size a
  hwx2_3 : ∀ i : grid2.Coords, EltTy.bits .f32 = 32 ∨ (Rect.block (s := S10000x128) S400x128.size (cc2_transform_3 i) (hinb2_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S400x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x128, .f32⟩
  | .hbm, ⟨33, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x128_S10000_d1 : S10000x128.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  A two-layer graph convolution followed by a row-wise log-softmax, as functions on the extended reals.

  With an adjacency matrix `A` (n × n), features `X` (n × d), weights `W₁`, `W₂` and biases `b₁`, `b₂`:
    S₁ = X·W₁,   S₂ = relu(A·S₁ + b₁)·W₂,   Y = A·S₂ + b₂,   out = log_softmax(Y) along each row.
  Every entry of S₂ and of `out` in row `r` depends on `A` only through its row `r`; so each stage is written here
  over ONE ROW of the adjacency matrix (`row : Fin n → EReal`) and the whole matrices it multiplies. A block of rows
  and the whole array are then the same function read at different rows.

  Two spellings of the log-softmax of a row `y` with maximum `M` (taken from the value `ι` the reduction starts at):
    `y o − (M + log Σⱼ exp(yⱼ − M))`       (the sum of maximum and log-sum subtracted at once) and
    `(y o − M') − log(z + Σⱼ exp(yⱼ − M'))` with `M' = max ι M`  (the maximum subtracted first).
  They agree whenever `y o` and `M` are real numbers (Proof/SpecLaws.lean); on the extended reals subtraction does
  not associate at the infinities, which is where the inputs' finiteness is used.
-/
import Idealize.ShloMosaic.PureOps.Ideal
import Idealize.ShloMosaic.Lib.ValueIdx

noncomputable section

namespace Cert.GraphConv

open Idealize.ShloMosaic Idealize.ShloMosaic.ValueIdx

/-- A row times a matrix, at column `c`: the sum over the shared axis. -/
def dotRow {K C : Nat} (row : Fin K → EReal) (b : (⟨2, ![K, C]⟩ : Shape).Idx → EReal) (c : Fin C) : EReal :=
  ∑ k : Fin K, row k * b (ix2 k c)

/-- Row `r` of a matrix. -/
def rowOf {R K : Nat} (a : (⟨2, ![R, K]⟩ : Shape).Idx → EReal) (r : Fin R) : Fin K → EReal := fun k => a (ix2 r k)

/-- A one-row matrix `[1, n]` as the vector it holds. -/
def vecOfRow {n : Nat} (b : (⟨2, ![1, n]⟩ : Shape).Idx → EReal) : Fin n → EReal := fun h => b (ix2 (0 : Fin 1) h)

/-- A vector `[n]` as a function of its one coordinate. -/
def vecOf {n : Nat} (b : (⟨1, ![n]⟩ : Shape).Idx → EReal) : Fin n → EReal := fun h => b (ix1 h)

/-- The first support matrix `S₁ = X·W₁`, entry by entry. -/
def support1 (x : (⟨2, ![10000, 128]⟩ : Shape).Idx → EReal) (w1 : (⟨2, ![128, 128]⟩ : Shape).Idx → EReal) :
    (⟨2, ![10000, 128]⟩ : Shape).Idx → EReal :=
  fun i => dotRow (rowOf x (i 0)) w1 (i 1)

/-- The hidden layer in one row: `relu(row·S₁ + b₁)` at unit `h`. -/
def hiddenRow (row : Fin 10000 → EReal) (s1 : (⟨2, ![10000, 128]⟩ : Shape).Idx → EReal) (b1 : Fin 128 → EReal) (h : Fin 128) : EReal :=
  max (dotRow row s1 h + b1 h) 0

/-- The second support matrix in one row: `relu(row·S₁ + b₁)·W₂` at column `o`. -/
def support2Row (row : Fin 10000 → EReal) (s1 : (⟨2, ![10000, 128]⟩ : Shape).Idx → EReal) (b1 : Fin 128 → EReal)
    (w2 : (⟨2, ![128, 128]⟩ : Shape).Idx → EReal) (o : Fin 128) : EReal :=
  ∑ h : Fin 128, hiddenRow row s1 b1 h * w2 (ix2 h o)

/-- The second support matrix `S₂`, entry by entry. -/
def support2 (a : (⟨2, ![10000, 10000]⟩ : Shape).Idx → EReal) (s1 : (⟨2, ![10000, 128]⟩ : Shape).Idx → EReal) (b1 : Fin 128 → EReal)
    (w2 : (⟨2, ![128, 128]⟩ : Shape).Idx → EReal) : (⟨2, ![10000, 128]⟩ : Shape).Idx → EReal :=
  fun i => support2Row (rowOf a (i 0)) s1 b1 w2 (i 1)

/-- The logits of one row: `row·S₂ + b₂` at class `o`. -/
def logitsRow (row : Fin 10000 → EReal) (s2 : (⟨2, ![10000, 128]⟩ : Shape).Idx → EReal) (b2 : Fin 128 → EReal) (o : Fin 128) : EReal :=
  dotRow row s2 o + b2 o

/-- The maximum of a row, folded from the value `ι` the reduction starts at. -/
def rowMax (ι : EReal) (y : Fin 128 → EReal) : EReal := (Finset.univ : Finset (Fin 128)).fold max ι y

/-- Log-softmax of a row at class `o`, the sum of the maximum and the log-sum subtracted at once. -/
def logSoftmaxJoint (ι : EReal) (y : Fin 128 → EReal) (o : Fin 128) : EReal :=
  y o - (rowMax ι y + Ideal.log (∑ j : Fin 128, Ideal.exp (y j - rowMax ι y)))

/-- Log-softmax of a row at class `o`, the maximum (joined once more with `ι`) subtracted first, the log-sum (of the sum
    started at `z`) after. -/
def logSoftmaxShifted (ι z : EReal) (y : Fin 128 → EReal) (o : Fin 128) : EReal :=
  (y o - max ι (rowMax ι y)) - Ideal.log (z + ∑ j : Fin 128, Ideal.exp (y j - max ι (rowMax ι y)))

/-- The network's output array with the joint spelling: row `i 0`, class `i 1`. -/
def outJoint (ι : EReal) (a : (⟨2, ![10000, 10000]⟩ : Shape).Idx → EReal) (s2 : (⟨2, ![10000, 128]⟩ : Shape).Idx → EReal) (b2 : Fin 128 → EReal) :
    (⟨2, ![10000, 128]⟩ : Shape).Idx → EReal :=
  fun i => logSoftmaxJoint ι (logitsRow (rowOf a (i 0)) s2 b2) (i 1)

/-- The network's output array with the shifted spelling. -/
def outShifted (ι z : EReal) (a : (⟨2, ![10000, 10000]⟩ : Shape).Idx → EReal) (s2 : (⟨2, ![10000, 128]⟩ : Shape).Idx → EReal) (b2 : Fin 128 → EReal) :
    (⟨2, ![10000, 128]⟩ : Shape).Idx → EReal :=
  fun i => logSoftmaxShifted ι z (logitsRow (rowOf a (i 0)) s2 b2) (i 1)

end Cert.GraphConv

end
-- ==== Proof.RefValue.lean ====
/-
  The reference program's stages are the specification's functions, entry by entry.

  The reference computes S₁ = X·W₁, the hidden layer relu(A·S₁ + b₁), S₂ = hidden·W₂, the logits A·S₂ + b₂ and their row-wise
  log-softmax in jax's spelling: the row maximum M (joined once more with −∞) subtracted first, then the logarithm of the
  sum, started at 0, of the exponentials of the shifted row. Each stage read at an entry (r, q) is a sum over the shared
  axis of entries of the stages before it; the index functions that the reading produces are the plain coordinate pairs.
-/
import proofs.«148314_g47416438948092_cont_8to1_c_129_2_alg».proof.Defs
import proofs.«148314_g47416438948092_cont_8to1_c_129_2_alg».proof.Proof.RefRead
import proofs.«148314_g47416438948092_cont_8to1_c_129_2_alg».proof.Proof.Spec
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.ReadP Cert.GraphConv

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-! ## The index functions of the reading are coordinate pairs -/

theorem lidx0 (r : Fin 10000) (q k : Fin 128) : lidx_main_v0 (ix2 r q) k = ix2 r k :=
  funext fun a => by match a with | ⟨0, _⟩ => rfl | ⟨1, _⟩ => rfl
theorem ridx0 (r : Fin 10000) (q k : Fin 128) : ridx_main_v0 (ix2 r q) k = ix2 k q :=
  funext fun a => by match a with | ⟨0, _⟩ => rfl | ⟨1, _⟩ => rfl
theorem lidx1 (r : Fin 10000) (q : Fin 128) (k : Fin 10000) : lidx_main_v1 (ix2 r q) k = ix2 r k :=
  funext fun a => by match a with | ⟨0, _⟩ => rfl | ⟨1, _⟩ => rfl
theorem ridx1 (r : Fin 10000) (q : Fin 128) (k : Fin 10000) : ridx_main_v1 (ix2 r q) k = ix2 k q :=
  funext fun a => by match a with | ⟨0, _⟩ => rfl | ⟨1, _⟩ => rfl
theorem lidx6 (r : Fin 10000) (q k : Fin 128) : lidx_main_v6 (ix2 r q) k = ix2 r k :=
  funext fun a => by match a with | ⟨0, _⟩ => rfl | ⟨1, _⟩ => rfl
theorem ridx6 (r : Fin 10000) (q k : Fin 128) : ridx_main_v6 (ix2 r q) k = ix2 k q :=
  funext fun a => by match a with | ⟨0, _⟩ => rfl | ⟨1, _⟩ => rfl
theorem lidx7 (r : Fin 10000) (q : Fin 128) (k : Fin 10000) : lidx_main_v7 (ix2 r q) k = ix2 r k :=
  funext fun a => by match a with | ⟨0, _⟩ => rfl | ⟨1, _⟩ => rfl
theorem ridx7 (r : Fin 10000) (q : Fin 128) (k : Fin 10000) : ridx_main_v7 (ix2 r q) k = ix2 k q :=
  funext fun a => by match a with | ⟨0, _⟩ => rfl | ⟨1, _⟩ => rfl
theorem idx23 (r : Fin 10000) (q : Fin 128) : idx_main_v2 (idx_main_v3 (ix2 r q)) = ix1 q :=
  funext fun a => by match a with | ⟨0, _⟩ => rfl
theorem idx89 (r : Fin 10000) (q : Fin 128) : idx_main_v8 (idx_main_v9 (ix2 r q)) = ix1 q :=
  funext fun a => by match a with | ⟨0, _⟩ => rfl

/-! ## The stages -/

/-- The reference's first product at (r, q) is row r of X times W₁ at column q. -/
theorem v0_apply (r : Fin 10000) (q : Fin 128) : val_main_v0 (F := Ideal) x0 x2 (ix2 r q) = dotRow (rowOf x0 r) x2 q := by
  rw [val_main_v0_apply]
  unfold dotRow rowOf
  exact Finset.sum_congr rfl fun k _ => by rw [lidx0, ridx0]

/-- So the reference's first product IS the first support matrix. -/
theorem v0_eq : val_main_v0 (F := Ideal) x0 x2 = support1 x0 x2 := by
  funext i
  obtain ⟨r, q, rfl⟩ : ∃ (r : Fin 10000) (q : Fin 128), i = ix2 r q := ⟨i 0, i 1, eq_ix2 i⟩
  exact v0_apply x0 x2 r q

/-- The reference's hidden layer at (r, h): relu of row r of A times S₁ at h, plus the bias at h. -/
theorem v5_apply (r : Fin 10000) (h : Fin 128) :
    val_main_v5 (F := Ideal) x0 x1 x2 x3 (ix2 r h) = hiddenRow (rowOf x1 r) (val_main_v0 (F := Ideal) x0 x2) (vecOf x3) h := by
  rw [val_main_v5_apply, val_main_v4_apply, val_main_v1_apply, val_main_v3_apply, val_main_v2_apply, val_main_call0_v0_apply,
    val_main_call0_cst_apply, idx23]
  unfold hiddenRow dotRow rowOf vecOf
  simp only [Ideal.maximumf_def, Ideal.addf_def, Ideal.ofBits_def, Ideal.ofBits_zero_f32]
  congr 2
  exact Finset.sum_congr rfl fun k _ => by rw [lidx1, ridx1]

/-- The reference's second product at (r, q): the hidden row r times W₂ at column q. -/
theorem v6_apply (r : Fin 10000) (q : Fin 128) :
    val_main_v6 (F := Ideal) x0 x1 x2 x3 x4 (ix2 r q)
      = support2Row (rowOf x1 r) (val_main_v0 (F := Ideal) x0 x2) (vecOf x3) x4 q := by
  rw [val_main_v6_apply]
  unfold support2Row
  exact Finset.sum_congr rfl fun h _ => by rw [lidx6, ridx6, v5_apply]

/-- So the reference's second product IS the second support matrix of the first. -/
theorem v6_eq : val_main_v6 (F := Ideal) x0 x1 x2 x3 x4 = support2 x1 (support1 x0 x2) (vecOf x3) x4 := by
  funext i
  obtain ⟨r, q, rfl⟩ : ∃ (r : Fin 10000) (q : Fin 128), i = ix2 r q := ⟨i 0, i 1, eq_ix2 i⟩
  rw [v6_apply, v0_eq]
  rfl

/-- The reference's logits at (r, o): row r of A times S₂ at o, plus the second bias at o. -/
theorem v10_apply (r : Fin 10000) (o : Fin 128) :
    val_main_v10 (F := Ideal) x0 x1 x2 x3 x4 x5 (ix2 r o)
      = logitsRow (rowOf x1 r) (val_main_v6 (F := Ideal) x0 x1 x2 x3 x4) (vecOf x5) o := by
  rw [val_main_v10_apply, val_main_v7_apply, val_main_v9_apply, val_main_v8_apply, idx89]
  unfold logitsRow dotRow rowOf vecOf
  simp only [Ideal.addf_def]
  congr 1
  exact Finset.sum_congr rfl fun k _ => by rw [lidx7, ridx7]

end Cert.ReferenceIdeal.RefValue

end
-- ==== Proof.RefSoftmax.lean ====
/-
  The reference's log-softmax stage, entry by entry.

  jax's log-softmax of the logits Y: per row r, M = max(−∞, max over the row) — the row maximum joined once more with the
  value the reduction started from —, the shifted row Y − M, the sum (started at 0) of its exponentials, the logarithm of
  that sum, and (Y − M) − log-sum. Each intermediate array is read here at an entry of row r in terms of that row of Y alone.
-/
import proofs.«148314_g47416438948092_cont_8to1_c_129_2_alg».proof.Defs
import proofs.«148314_g47416438948092_cont_8to1_c_129_2_alg».proof.Proof.RefValue
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.ReadP Cert.GraphConv

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- The value the row maximum is folded from: the f32 word of −∞, as printed. -/
abbrev ninf : EReal := Ideal.ofBits .f32 0xFF800000#32

theorem idx34 (r : Fin 10000) (q : Fin 128) : idx_main_call1_v3 (idx_main_call1_v4 (ix2 r q)) = ix1 r :=
  funext fun a => by match a with | ⟨0, _⟩ => rfl
theorem idx810 (r : Fin 10000) (q : Fin 128) : idx_main_call1_v8 (idx_main_call1_v10 (ix2 r q)) = ix1 r :=
  funext fun a => by match a with | ⟨0, _⟩ => rfl
theorem idx7 (r : Fin 10000) (k : Fin 128) : idx_main_call1_v7 (ix1 r) k = ix2 r k :=
  funext fun a => by match a with | ⟨0, _⟩ => rfl | ⟨1, _⟩ => rfl

/-- Reducing a [10000, 128] array over its second axis: the index of row `r` with the coordinate `k` put back is (r, k). -/
theorem lift_row (h : S10000x128.Reduces [1] S10000) (r : Fin 10000) (k : Fin 128) : h.lift (ix1 r) k = ix2 r k :=
  funext fun a => Fin.ext (by match a with | ⟨0, _⟩ => rfl | ⟨1, _⟩ => rfl)

/-- A maximum-reduction of a [10000, 128] array over its second axis, at row r: the fold of `max` from the start value over
    the row's 128 entries. -/
theorem rowmax_fold (y : S10000x128.Idx → EReal) (init : S_.Idx → EReal) (r : Fin 10000) :
    Host.reduce (FloatOps.maximumf (F := Ideal) (φ := .f32)) y init reducesTo_S10000x128_S10000_d1 h_S_ (ix1 r)
      = (Finset.univ : Finset (Fin 128)).fold max (init (Shape.Idx.first h_S_)) (fun o => y (ix2 r o)) := by
  refine (Host.reduce_eq_fold_single (FloatOps.maximumf (F := Ideal) (φ := .f32)) y init reducesTo_S10000x128_S10000_d1 (by decide) h_S_ (ix1 r)).trans ?_
  have e : (y ∘ (by decide : S10000x128.Reduces [1] S10000).lift (ix1 r)) = fun o => y (ix2 r o) :=
    funext fun o => congrArg y (lift_row _ r o)
  rw [e]
  rfl

/-- Row r of the reference's logits. -/
abbrev yRow (r : Fin 10000) : Fin 128 → EReal := fun o => val_main_v10 (F := Ideal) x0 x1 x2 x3 x4 x5 (ix2 r o)

/-- The reference's row maximum at row r. -/
theorem rowmax_apply (r : Fin 10000) :
    val_main_call1_v0 (F := Ideal) x0 x1 x2 x3 x4 x5 (ix1 r) = rowMax ninf (yRow x0 x1 x2 x3 x4 x5 r) := by
  unfold val_main_call1_v0
  rw [rowmax_fold]
  rfl

/-- The maximum the reference subtracts, broadcast along row r: the row maximum joined once more with −∞. -/
theorem shift_apply (r : Fin 10000) (q : Fin 128) :
    val_main_call1_v4 (F := Ideal) x0 x1 x2 x3 x4 x5 (ix2 r q) = max ninf (rowMax ninf (yRow x0 x1 x2 x3 x4 x5 r)) := by
  rw [val_main_call1_v4_apply, val_main_call1_v3_apply, idx34, val_main_call1_v2_apply, val_main_call1_v1_apply,
    val_main_call1_cst_0_apply, rowmax_apply]
  rfl

/-- The shifted logits at (r, q). -/
theorem shifted_apply (r : Fin 10000) (q : Fin 128) :
    val_main_call1_v5 (F := Ideal) x0 x1 x2 x3 x4 x5 (ix2 r q)
      = yRow x0 x1 x2 x3 x4 x5 r q - max ninf (rowMax ninf (yRow x0 x1 x2 x3 x4 x5 r)) := by
  rw [val_main_call1_v5_apply, shift_apply]
  rfl

/-- The sum of the exponentials of the shifted row r, started at 0. -/
theorem expsum_apply (r : Fin 10000) :
    val_main_call1_v7 (F := Ideal) x0 x1 x2 x3 x4 x5 (ix1 r)
      = 0 + ∑ j : Fin 128, Ideal.exp (yRow x0 x1 x2 x3 x4 x5 r j - max ninf (rowMax ninf (yRow x0 x1 x2 x3 x4 x5 r))) := by
  rw [val_main_call1_v7_apply, val_main_call1_cst_1_apply]
  congr 1
  · exact Ideal.ofBits_zero_f32
  · exact Finset.sum_congr rfl fun k _ => by rw [idx7, val_main_call1_v6_apply, shifted_apply]; rfl

/-- The logarithm of that sum, broadcast along row r. -/
theorem logsum_apply (r : Fin 10000) (q : Fin 128) :
    val_main_call1_v10 (F := Ideal) x0 x1 x2 x3 x4 x5 (ix2 r q)
      = Ideal.log (0 + ∑ j : Fin 128, Ideal.exp (yRow x0 x1 x2 x3 x4 x5 r j - max ninf (rowMax ninf (yRow x0 x1 x2 x3 x4 x5 r)))) := by
  rw [val_main_call1_v10_apply, val_main_call1_v9_apply, val_main_call1_v8_apply, idx810, expsum_apply]
  rfl

/-- The reference's result at (r, q): log-softmax of row r of the logits at q, the maximum subtracted first. -/
theorem v11_apply (r : Fin 10000) (q : Fin 128) :
    val_main_v11 (F := Ideal) x0 x1 x2 x3 x4 x5 (ix2 r q) = logSoftmaxShifted ninf 0 (yRow x0 x1 x2 x3 x4 x5 r) q := by
  rw [val_main_v11_apply, shifted_apply, logsum_apply]
  rfl

/-- THE REFERENCE'S RESULT is the network's output in the shifted spelling, of the six arguments. -/
theorem v11_eq : val_main_v11 (F := Ideal) x0 x1 x2 x3 x4 x5
    = outShifted ninf 0 x1 (support2 x1 (support1 x0 x2) (vecOf x3) x4) (vecOf x5) := by
  funext i
  obtain ⟨r, q, rfl⟩ : ∃ (r : Fin 10000) (q : Fin 128), i = ix2 r q := ⟨i 0, i 1, eq_ix2 i⟩
  rw [v11_apply]
  have e : yRow x0 x1 x2 x3 x4 x5 r = logitsRow (rowOf x1 r) (support2 x1 (support1 x0 x2) (vecOf x3) x4) (vecOf x5) :=
    funext fun o => by
      show val_main_v10 (F := Ideal) x0 x1 x2 x3 x4 x5 (ix2 r o) = _
      rw [v10_apply, v6_eq]
  rw [e]
  rfl

end Cert.ReferenceIdeal.RefValue

end
-- ==== Proof.KernelRun.lean ====
/-
  The idealized kernel's run with its RESULT named: every weakly fair execution of @main terminates, nothing
  faulting, with the result array at the contents the last of the three regions leaves in it (the fold of the regions'
  write-backs from the launch memory, `Gen.W4`) and the six argument arrays as launched. It is the launch of @main's four
  segments (the two reshapes, then the three regions) exactly as for the frame, the final state read at one more buffer.
-/
import proofs.«148314_g47416438948092_cont_8to1_c_129_2_alg».proof.Defs
import proofs.«148314_g47416438948092_cont_8to1_c_129_2_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, read at the result: the result buffer ends at `W4`'s contents, the arguments unchanged. -/
theorem run_out : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Hand

end
-- ==== Proof.Payload.lean ====
import proofs.«148314_g47416438948092_cont_8to1_c_129_2_alg».proof.Defs
import proofs.«148314_g47416438948092_cont_8to1_c_129_2_alg».proof.Proof.Gen.KernelIdeal.Skeleton
import proofs.«148314_g47416438948092_cont_8to1_c_129_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
open Idealize.ShloMosaic Idealize.ShloMosaic.ValueIdx

namespace Cert.KernelIdeal.Hand
open Cert.KernelIdeal Cert.KernelIdeal.Gen Cert.GraphConv

/-- The value a row maximum is folded from: the f32 word of −∞, kept as the word both programs print. -/
abbrev ninf : EReal := Ideal.ofBits .f32 0xFF800000#32

/-- The product of a [10000, 128] and a [128, 128] matrix accumulated into zero, at row p and column q: the sum over the shared axis. -/
theorem matmul_S10000x128_S128x128_apply {φ₁ φ₂ : FTy} (prec : Option ContractPrecision) (l : FVec Ideal S10000x128 φ₁) (r : FVec Ideal S128x128 φ₂)
    (p : Fin 10000) (q : Fin 128) :
    matmul dot_S10000x128_S128x128_S10000x128_1_0_0_1_n_n prec l r (constant S10000x128 .f32 0x00000000#32) (ix2 p q)
      = ∑ k : Fin 128, l (ix2 p k) * r (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have l0 : ∀ (i : S10000x128.Idx) (c : dot_S10000x128_S128x128_S10000x128_1_0_0_1_n_n.contr.Idx), (dot_S10000x128_S128x128_S10000x128_1_0_0_1_n_n.lhsIdx i c 0).val = (i 0).val := fun i c => by
    unfold DotDims.lhsIdx
    rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
    rfl
  have r1 : ∀ (i : S10000x128.Idx) (c : dot_S10000x128_S128x128_S10000x128_1_0_0_1_n_n.contr.Idx), (dot_S10000x128_S128x128_S10000x128_1_0_0_1_n_n.rhsIdx i c 1).val = (i 1).val := fun i c => by
    unfold DotDims.rhsIdx
    rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
    rfl
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact l0 _ _
    | ⟨1, _⟩ => exact (dot_S10000x128_S128x128_S10000x128_1_0_0_1_n_n.lhsIdx_val_of_single rfl _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (dot_S10000x128_S128x128_S10000x128_1_0_0_1_n_n.rhsIdx_val_of_single rfl _ _).trans hk
    | ⟨1, _⟩ => exact r1 _ _)
  rw [el, er]

/-- The product of a [400, 10000] and a [10000, 128] matrix accumulated into zero, at row p and column q: the sum over the shared axis. -/
theorem matmul_S400x10000_S10000x128_apply {φ₁ φ₂ : FTy} (prec : Option ContractPrecision) (l : FVec Ideal S400x10000 φ₁) (r : FVec Ideal S10000x128 φ₂)
    (p : Fin 400) (q : Fin 128) :
    matmul dot_S400x10000_S10000x128_S400x128_1_0_0_1_n_n prec l r (constant S400x128 .f32 0x00000000#32) (ix2 p q)
      = ∑ k : Fin 10000, l (ix2 p k) * r (ix2 k q) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have l0 : ∀ (i : S400x128.Idx) (c : dot_S400x10000_S10000x128_S400x128_1_0_0_1_n_n.contr.Idx), (dot_S400x10000_S10000x128_S400x128_1_0_0_1_n_n.lhsIdx i c 0).val = (i 0).val := fun i c => by
    unfold DotDims.lhsIdx
    rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
    rfl
  have r1 : ∀ (i : S400x128.Idx) (c : dot_S400x10000_S10000x128_S400x128_1_0_0_1_n_n.contr.Idx), (dot_S400x10000_S10000x128_S400x128_1_0_0_1_n_n.rhsIdx i c 1).val = (i 1).val := fun i c => by
    unfold DotDims.rhsIdx
    rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
    rfl
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact l0 _ _
    | ⟨1, _⟩ => exact (dot_S400x10000_S10000x128_S400x128_1_0_0_1_n_n.lhsIdx_val_of_single rfl _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (dot_S400x10000_S10000x128_S400x128_1_0_0_1_n_n.rhsIdx_val_of_single rfl _ _).trans hk
    | ⟨1, _⟩ => exact r1 _ _)
  rw [el, er]

/-- The product of a [400, 128] and a [128, 128] matrix accumulated into zero, at row p and column q: the sum over the shared axis. -/
theorem matmul_S400x128_S128x128_apply {φ₁ φ₂ : FTy} (prec : Option ContractPrecision) (l : FVec Ideal S400x128 φ₁) (r : FVec Ideal S128x128 φ₂)
    (p : Fin 400) (q : Fin 128) :
    matmul dot_S400x128_S128x128_S400x128_1_0_0_1_n_n prec l r (constant S400x128 .f32 0x00000000#32) (ix2 p q)
      = ∑ k : Fin 128, l (ix2 p k) * r (ix2 k q) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have l0 : ∀ (i : S400x128.Idx) (c : dot_S400x128_S128x128_S400x128_1_0_0_1_n_n.contr.Idx), (dot_S400x128_S128x128_S400x128_1_0_0_1_n_n.lhsIdx i c 0).val = (i 0).val := fun i c => by
    unfold DotDims.lhsIdx
    rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
    rfl
  have r1 : ∀ (i : S400x128.Idx) (c : dot_S400x128_S128x128_S400x128_1_0_0_1_n_n.contr.Idx), (dot_S400x128_S128x128_S400x128_1_0_0_1_n_n.rhsIdx i c 1).val = (i 1).val := fun i c => by
    unfold DotDims.rhsIdx
    rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
    rfl
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact l0 _ _
    | ⟨1, _⟩ => exact (dot_S400x128_S128x128_S400x128_1_0_0_1_n_n.lhsIdx_val_of_single rfl _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (dot_S400x128_S128x128_S400x128_1_0_0_1_n_n.rhsIdx_val_of_single rfl _ _).trans hk
    | ⟨1, _⟩ => exact r1 _ _)
  rw [el, er]

/-- A block of rows of the adjacency matrix times a support matrix, plus the bias row broadcast over the block, at row p
    and column h: that row's product with the matrix there, plus the bias at h. -/
theorem affine_apply (x0 : Vec Ideal S400x10000 .f32) (x1 : Vec Ideal S10000x128 .bf16) (x2 : Vec Ideal S1x128 .f32)
    (p : Fin 400) (h : Fin 128) :
    (addf (matmul dot_S400x10000_S10000x128_S400x128_1_0_0_1_n_n none (truncf .bf16 x0 bitsLt_bf16_f32)
            (shapeCast S10000x128 x1 shapeCasts_S10000x128_S10000x128 : FVec Ideal S10000x128 .bf16)
            (constant S400x128 .f32 0x00000000#32))
         (broadcastTo S400x128 (shapeCast S1x128 x2 shapeCasts_S1x128_S1x128 : FVec Ideal S1x128 .f32) broadcasts_S1x128_S400x128)
       : FVec Ideal S400x128 .f32) (ix2 p h)
      = dotRow (rowOf x0 p) x1 h + vecOfRow x2 h := by
  rw [shapeCast_self, shapeCast_self]
  refine congrArg₂ (· + ·) ?_ ?_
  · exact matmul_S400x10000_S10000x128_apply (φ₁ := .bf16) (φ₂ := .bf16) none (truncf .bf16 x0 bitsLt_bf16_f32) x1 p h
  · exact broadcastTo_1b_ab_apply x2 broadcasts_S1x128_S400x128 p h

/-- A vector of 400 entries recast as a column [400, 1] reads, at (p, 0), its entry p. -/
theorem shapeCast_col_apply {α : Type} (v : S400.Idx → α) (p : Fin 400) :
    shapeCast S400x1 v shapeCasts_S400_S400x1 (ix2 p (0 : Fin 1)) = v (ix1 p) := by
  refine shapeCast_apply v shapeCasts_S400_S400x1 (ix2 p (0 : Fin 1)) (ix1 p) ?_
  rw [Shape.rowMajor_val_one, Shape.rowMajor_val_two]
  show p.val = p.val * 1 + 0
  omega

/-- A column [400, 1] broadcast over 128 columns reads, at (p, q), the column's entry p. -/
theorem broadcastTo_col_apply {α : Type} (v : S400x1.Idx → α) (p : Fin 400) (q : Fin 128) :
    broadcastTo S400x128 v broadcasts_S400x1_S400x128 (ix2 p q) = v (ix2 p (0 : Fin 1)) := by
  refine broadcastTo_apply v broadcasts_S400x1_S400x128 (ix2 p q) (ix2 p (0 : Fin 1)) fun ax => ?_
  match ax with
  | ⟨0, _⟩ => rfl
  | ⟨1, _⟩ => rfl

/-- Row p of a [400, 128] array with the column coordinate k put back: the index (p, k). -/
theorem lift_row (p : Fin 400) (k : Fin 128) : reduces_S400x128_S400.lift (ix1 p) k = ix2 p k :=
  funext fun a => Fin.ext (by
    match a with
    | ⟨0, _⟩ => rfl
    | ⟨1, _⟩ => rfl)

/-- The maximum along the rows of a [400, 128] array, folded from −∞, at row p. -/
theorem rowMax_apply (v : FVec Ideal S400x128 .f32) (p : Fin 400) :
    multiReduction .maximumf [1] S400 v 0xFF800000#32 reduces_S400x128_S400 (.inl rfl) rfl (ix1 p)
      = rowMax ninf fun k => v (ix2 p k) := by
  refine (Ideal.multiReduction_maximumf_single v _ reduces_S400x128_S400 _ _ (ix1 p)).trans ?_
  exact congrArg (fun f : Fin 128 → EReal => (Finset.univ : Finset (Fin 128)).fold max ninf f)
    (funext fun k => congrArg v (lift_row p k))

/-- The sum along the rows of a [400, 128] array at row p. -/
theorem rowSum_apply (v : FVec Ideal S400x128 .f32) (p : Fin 400) :
    multiReduction .add [1] S400 v 0x00000000#32 reduces_S400x128_S400 (.inl rfl) rfl (ix1 p)
      = ∑ k : Fin 128, v (ix2 p k) := by
  refine (Ideal.multiReduction_add_single v _ reduces_S400x128_S400 _ _ (ix1 p)).trans ?_
  exact Finset.sum_congr rfl fun k _ => congrArg v (lift_row p k)

/-- The tail of a row-wise log-softmax over a [400, 128] array Y, given a column M whose entry in row p is m: Y minus the
    broadcast of M + log(row sums of exp(Y − M)), at (p, q), is Y(p, q) − (m + log Σⱼ exp(Y(p, j) − m)). -/
theorem logSoftmax_tail_apply (Y : FVec Ideal S400x128 .f32) (M : FVec Ideal S400x1 .f32) (p : Fin 400) (q : Fin 128) (m : EReal)
    (hM : M (ix2 p (0 : Fin 1)) = m) :
    (subf Y (broadcastTo S400x128
        (addf M (log (shapeCast S400x1
          (multiReduction .add [1] S400 (exp (subf Y (broadcastTo S400x128 M broadcasts_S400x1_S400x128))) 0x00000000#32
            reduces_S400x128_S400 (.inl rfl) rfl) shapeCasts_S400_S400x1)))
        broadcasts_S400x1_S400x128) : FVec Ideal S400x128 .f32) (ix2 p q)
      = Y (ix2 p q) - (m + Ideal.log (∑ j : Fin 128, Ideal.exp (Y (ix2 p j) - m))) := by
  refine (subf_apply _ _ _).trans ?_
  refine congrArg (Y (ix2 p q) - ·) ?_
  refine (broadcastTo_col_apply _ p q).trans ?_
  refine (addf_apply _ _ _).trans ?_
  refine congrArg₂ (· + ·) hM ?_
  refine congrArg Ideal.log ?_
  refine (shapeCast_col_apply _ p).trans ?_
  refine (rowSum_apply _ p).trans ?_
  refine Finset.sum_congr rfl fun j _ => ?_
  refine congrArg Ideal.exp ?_
  refine (subf_apply _ _ _).trans ?_
  refine congrArg (Y (ix2 p j) - ·) ?_
  exact (broadcastTo_col_apply _ p j).trans hM

theorem pay0_apply (x0 : Vec Ideal S10000x128 .f32) (x1 : Vec Ideal S128x128 .f32) (p : Fin 10000) (q : Fin 128) :
    k0_pay1 (F := Ideal) x0 x1 (ix2 p q) = dotRow (rowOf x0 p) x1 q := by
  unfold k0_pay1
  exact matmul_S10000x128_S128x128_apply (φ₁ := .f32) (φ₂ := .f32) (some .fp32) x0 x1 p q
theorem pay1_apply (x0 : Vec Ideal S400x10000 .f32) (x1 : Vec Ideal S10000x128 .bf16) (x2 : Vec Ideal S1x128 .f32) (x3 : Vec Ideal S128x128 .f32)
    (p : Fin 400) (q : Fin 128) :
    k1_pay1 (F := Ideal) x0 x1 x2 x3 (ix2 p q) = support2Row (rowOf x0 p) x1 (vecOfRow x2) x3 q := by
  unfold k1_pay1
  refine (truncf_apply (ψ := .bf16) _ bitsLt_bf16_f32 _).trans ?_
  refine (matmul_S400x128_S128x128_apply (φ₁ := .f32) (φ₂ := .f32) (some .fp32) _ x3 p q).trans ?_
  refine Finset.sum_congr rfl fun h _ => ?_
  refine congrArg (· * x3 (ix2 h q)) ?_
  refine (maximumf_apply _ _ _).trans ?_
  unfold hiddenRow
  exact congrArg₂ max (affine_apply x0 x1 x2 p h) Ideal.ofBits_zero_f32
theorem pay2_apply (x0 : Vec Ideal S400x10000 .f32) (x1 : Vec Ideal S10000x128 .bf16) (x2 : Vec Ideal S1x128 .f32) (p : Fin 400) (q : Fin 128) :
    k2_pay1 (F := Ideal) x0 x1 x2 (ix2 p q) = logSoftmaxJoint ninf (logitsRow (rowOf x0 p) x1 (vecOfRow x2)) q := by
  unfold k2_pay1
  refine (logSoftmax_tail_apply _ _ p q _ ((shapeCast_col_apply _ p).trans (rowMax_apply _ p))).trans ?_
  exact congrArg (logSoftmaxJoint ninf · q) (funext fun k => affine_apply x0 x1 x2 p k)

end Cert.KernelIdeal.Hand
end
-- ==== Proof.Regions.lean ====
/-
  Each region's output array after the region, as one function of the buffer contents the region is entered with.

  A region walks a grid of points; at each point it reads a block of every input array, computes, and writes one block of its
  output array back. What a point writes is the same function of the ARRAYS read at that block's rows: a block of the
  adjacency matrix is some of its rows, and every other input's block is its whole array. Since the output's blocks tile
  the array, the array ends holding that one function at every index.
-/
import proofs.«148314_g47416438948092_cont_8to1_c_129_2_alg».proof.Defs
import proofs.«148314_g47416438948092_cont_8to1_c_129_2_alg».proof.Proof.Gen.KernelIdeal.Frame
import proofs.«148314_g47416438948092_cont_8to1_c_129_2_alg».proof.Proof.Spec
import proofs.«148314_g47416438948092_cont_8to1_c_129_2_alg».proof.Proof.Payload
import Idealize.ShloMosaic.Lib.Pipeline.Value
import Idealize.ShloMosaic.Lib.ValueIdx

noncomputable section
open Idealize.ShloMosaic Idealize.ShloMosaic.TcCoe Idealize.SL.Sem Idealize.ShloMosaic.ValueIdx
open Idealize.ShloMosaic.Pipeline (Dat)

namespace Cert.KernelIdeal.Hand
open Cert.KernelIdeal Cert.KernelIdeal.Gen Cert.GraphConv

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-! ## The first region: one point, every block its whole array -/

/-- The first region has no grid: at its one point every window sits at block (0, 0). -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Both input windows' blocks are their whole arrays. -/
theorem blk0_0 (c : Dev nD) (t : Fin cfg0.N) : (iblk0 V c 0 t : Vec Ideal S10000x128 .f32) = V c main_arg0 := by
  obtain ⟨e0, e1, -⟩ := idx_facts0 t
  funext y
  show V c main_arg0 (((cfg0.win 0).blk t).view.emb y) = V c main_arg0 y
  refine congrArg _ ?_
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega
theorem blk0_1 (c : Dev nD) (t : Fin cfg0.N) : (iblk0 V c 1 t : Vec Ideal S128x128 .f32) = V c main_arg2 := by
  obtain ⟨-, -, e0, e1, -⟩ := idx_facts0 t
  funext y
  show V c main_arg2 (((cfg0.win 1).blk t).view.emb y) = V c main_arg2 y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- An index of the output block is the same index of the array. -/
theorem emb0_2 (t : Fin cfg0.N) (p : Fin 10000) (q : Fin 128) : ((cfg0.win 2).blk t).view.emb (ix2 p q) = ix2 p q := by
  obtain ⟨-, -, -, -, e4, e5⟩ := idx_facts0 t
  funext a; apply Fin.ext
  match a with
  | ⟨0, _⟩ => show win0_2.index t (0 : Fin 2) * 10000 + 1 * p.val = p.val; omega
  | ⟨1, _⟩ => show win0_2.index t (1 : Fin 2) * 128 + 1 * q.val = q.val; omega

/-- What the point writes back is the first support matrix of the arrays as the region finds them. -/
theorem flushed0_eq (c : Dev nD) (t : Fin cfg0.N) :
    (dat0 (F := Ideal) V c).flushed 2 t = ((cfg0.win 2).blk t).view.read (Elt Ideal)
      (support1 (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  funext y
  obtain ⟨p, q, rfl⟩ : ∃ (p : Fin 10000) (q : Fin 128), y = ix2 p q := ⟨y 0, y 1, eq_ix2 y⟩
  show k0_pay1 (F := Ideal) (iblk0 V c 0 t) (iblk0 V c 1 t) (ix2 p q)
    = support1 (V c main_arg0) (V c main_arg2) (((cfg0.win 2).blk t).view.emb (ix2 p q))
  rw [pay0_apply, blk0_0, blk0_1, emb0_2]
  rfl

/-- Every index of the array is in the one point's block. -/
theorem cover0 (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  refine ⟨t0_0, flush0_2 t0_0, ?_⟩
  show i ∈ ((View.whole main_v2).slice (win0_2.rect t0_0)).set
  rw [View.set_slice_whole, Rect.mem_set_unit]
  obtain ⟨-, -, -, -, e4, e5⟩ := idx_facts0 t0_0
  intro a
  match a with
  | ⟨0, _⟩ => show win0_2.index t0_0 (0 : Fin 2) * 10000 ≤ (i 0).val ∧ (i 0).val < win0_2.index t0_0 (0 : Fin 2) * 10000 + 10000; omega
  | ⟨1, _⟩ => show win0_2.index t0_0 (1 : Fin 2) * 128 ≤ (i 1).val ∧ (i 1).val < win0_2.index t0_0 (1 : Fin 2) * 128 + 128; omega

/-- The array after the first region: the first support matrix of the arrays the region was entered with. -/
theorem final0 (c : Dev nD) : (dat0 (F := Ideal) V c).arrAt 2 cfg0.N = support1 (V c main_arg0) (V c main_arg2) :=
  (dat0 V c).arrAt_eq_of_cover 2 _ (fun t _ => flushed0_eq V c t) cover0

/-! ## The hidden layer's region: 25 blocks of 400 rows -/

/-- The printed index maps of the second region, decided over its 25 points: the adjacency window and the output window sit at
    row block `t`, column block 0; every other window at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of the adjacency block at point `t` is the adjacency matrix's row under the output block's row `p`. -/
theorem blk1_0 (c : Dev nD) (t : Fin cfg1.N) (p : Fin 400) (q : Fin 128) :
    rowOf (iblk1 V c 0 t : Vec Ideal S400x10000 .f32) p
      = rowOf (V c main_arg1) ((((cfg1.win 4).blk t).view.emb (ix2 p q)) 0) := by
  obtain ⟨e0, e1, -, -, -, -, -, -, e8, -⟩ := idx_facts1 t
  funext k
  show V c main_arg1 (((cfg1.win 0).blk t).view.emb (ix2 p k)) = V c main_arg1 (ix2 ((((cfg1.win 4).blk t).view.emb (ix2 p q)) 0) k)
  refine congrArg _ ?_
  funext a; apply Fin.ext
  match a with
  | ⟨0, _⟩ => show win1_0.index t (0 : Fin 2) * 400 + 1 * p.val = win1_4.index t (0 : Fin 2) * 400 + 1 * p.val; omega
  | ⟨1, _⟩ => show win1_0.index t (1 : Fin 2) * 10000 + 1 * k.val = k.val; omega

/-- The other three input windows' blocks are their whole arrays. -/
theorem blk1_1 (c : Dev nD) (t : Fin cfg1.N) : (iblk1 V c 1 t : Vec Ideal S10000x128 .bf16) = V c main_v2 := by
  obtain ⟨-, -, e0, e1, -⟩ := idx_facts1 t
  funext y
  show V c main_v2 (((cfg1.win 1).blk t).view.emb y) = V c main_v2 y
  refine congrArg _ ?_
  funext a; apply Fin.ext
  match a with
  | ⟨0, _⟩ => show win1_1.index t (0 : Fin 2) * 10000 + 1 * (y 0).val = (y 0).val; omega
  | ⟨1, _⟩ => show win1_1.index t (1 : Fin 2) * 128 + 1 * (y 1).val = (y 1).val; omega
theorem blk1_2 (c : Dev nD) (t : Fin cfg1.N) : (iblk1 V c 2 t : Vec Ideal S1x128 .f32) = V c main_v0 := by
  obtain ⟨-, -, -, -, e0, e1, -⟩ := idx_facts1 t
  funext y
  show V c main_v0 (((cfg1.win 2).blk t).view.emb y) = V c main_v0 y
  refine congrArg _ ?_
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega
theorem blk1_3 (c : Dev nD) (t : Fin cfg1.N) : (iblk1 V c 3 t : Vec Ideal S128x128 .f32) = V c main_arg4 := by
  obtain ⟨-, -, -, -, -, -, e0, e1, -⟩ := idx_facts1 t
  funext y
  show V c main_arg4 (((cfg1.win 3).blk t).view.emb y) = V c main_arg4 y
  refine congrArg _ ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The output block's column `q` is the array's column `q`. -/
theorem col1_4 (t : Fin cfg1.N) (p : Fin 400) (q : Fin 128) : (((cfg1.win 4).blk t).view.emb (ix2 p q)) 1 = q := by
  obtain ⟨-, -, -, -, -, -, -, -, -, e9⟩ := idx_facts1 t
  apply Fin.ext
  show win1_4.index t (1 : Fin 2) * 128 + 1 * q.val = q.val
  omega

/-- What point `t` writes back is block `t` of the second support matrix of the arrays as the region finds them. -/
theorem flushed1_eq (c : Dev nD) (t : Fin cfg1.N) :
    (dat1 (F := Ideal) V c).flushed 4 t = ((cfg1.win 4).blk t).view.read (Elt Ideal)
      (support2 (V c main_arg1) (V c main_v2) (vecOfRow (V c main_v0)) (V c main_arg4)) := by
  show (cfg1.win 4).cut (grid1.coords t) ((dat1 V c).after 4 t) = _
  rw [after1_4]
  unfold out1_4
  rw [View.canon_unit_zero zero_offsets]
  simp only [View.ld_unit_zero (S := S400x10000) zero_offsets, View.ld_unit_zero (S := S10000x128) zero_offsets, View.ld_unit_zero (S := S1x128) zero_offsets, View.ld_unit_zero (S := S128x128) zero_offsets]
  funext y
  obtain ⟨p, q, rfl⟩ : ∃ (p : Fin 400) (q : Fin 128), y = ix2 p q := ⟨y 0, y 1, eq_ix2 y⟩
  show k1_pay1 (F := Ideal) (iblk1 V c 0 t) (iblk1 V c 1 t) (iblk1 V c 2 t) (iblk1 V c 3 t) (ix2 p q)
    = support2Row (rowOf (V c main_arg1) ((((cfg1.win 4).blk t).view.emb (ix2 p q)) 0)) (V c main_v2) (vecOfRow (V c main_v0)) (V c main_arg4)
        ((((cfg1.win 4).blk t).view.emb (ix2 p q)) 1)
  rw [pay1_apply, blk1_0 V c t p q, blk1_1, blk1_2, blk1_3, col1_4]

/-- An index of the array is in point `t`'s block iff each coordinate is in the block's range on its axis. -/
theorem mem_blk1 (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v3).slice (win1_4.rect t)).set ↔ _
  rw [View.set_slice_whole, Rect.mem_set_unit]
  exact Iff.rfl

/-- Row `r` of the array lies in the block of point `r / 400`. -/
theorem cover1 (i : S10000x128.Idx) : ∃ t : Fin cfg1.N, (cfg1.win 4).flush t = true ∧ i ∈ ((cfg1.win 4).blk t).view.set := by
  have hi0 : (i 0).val < 10000 := (i 0).isLt
  have hi1 : (i 1).val < 128 := (i 1).isLt
  obtain ⟨t, ht⟩ : ∃ t : Fin cfg1.N, t.val = (i 0).val / 400 := ⟨⟨(i 0).val / 400, by rw [show cfg1.N = 25 from N_1]; omega⟩, rfl⟩
  refine ⟨t, flush1_4 t, ?_⟩
  rw [mem_blk1]
  obtain ⟨-, -, -, -, -, -, -, -, e8, e9⟩ := idx_facts1 t
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 128 ≤ (i 1).val ∧ (i 1).val < win1_4.index t (1 : Fin 2) * 128 + 128; omega

/-- The array after the second region: the second support matrix of the arrays the region was entered with. -/
theorem final1 (c : Dev nD) : (dat1 (F := Ideal) V c).arrAt 4 cfg1.N
    = support2 (V c main_arg1) (V c main_v2) (vecOfRow (V c main_v0)) (V c main_arg4) :=
  (dat1 V c).arrAt_eq_of_cover 4 _ (fun t _ => flushed1_eq V c t) cover1

/-! ## The output layer's region: 25 blocks of 400 rows -/

/-- The printed index maps of the third region, decided over its 25 points: the adjacency window and the output window sit at
    row block `t`, column block 0; the other two windows at block (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the adjacency block at point `t` is the adjacency matrix's row under the output block's row `p`. -/
theorem blk2_0 (c : Dev nD) (t : Fin cfg2.N) (p : Fin 400) (q : Fin 128) :
    rowOf (iblk2 V c 0 t : Vec Ideal S400x10000 .f32) p
      = rowOf (V c main_arg1) ((((cfg2.win 3).blk t).view.emb (ix2 p q)) 0) := by
  obtain ⟨e0, e1, -, -, -, -, e6, -⟩ := idx_facts2 t
  funext k
  show V c main_arg1 (((cfg2.win 0).blk t).view.emb (ix2 p k)) = V c main_arg1 (ix2 ((((cfg2.win 3).blk t).view.emb (ix2 p q)) 0) k)
  refine congrArg _ ?_
  funext a; apply Fin.ext
  match a with
  | ⟨0, _⟩ => show win2_0.index t (0 : Fin 2) * 400 + 1 * p.val = win2_3.index t (0 : Fin 2) * 400 + 1 * p.val; omega
  | ⟨1, _⟩ => show win2_0.index t (1 : Fin 2) * 10000 + 1 * k.val = k.val; omega

/-- The other two input windows' blocks are their whole arrays. -/
theorem blk2_1 (c : Dev nD) (t : Fin cfg2.N) : (iblk2 V c 1 t : Vec Ideal S10000x128 .bf16) = V c main_v3 := by
  obtain ⟨-, -, e0, e1, -⟩ := idx_facts2 t
  funext y
  show V c main_v3 (((cfg2.win 1).blk t).view.emb y) = V c main_v3 y
  refine congrArg _ ?_
  funext a; apply Fin.ext
  match a with
  | ⟨0, _⟩ => show win2_1.index t (0 : Fin 2) * 10000 + 1 * (y 0).val = (y 0).val; omega
  | ⟨1, _⟩ => show win2_1.index t (1 : Fin 2) * 128 + 1 * (y 1).val = (y 1).val; omega
theorem blk2_2 (c : Dev nD) (t : Fin cfg2.N) : (iblk2 V c 2 t : Vec Ideal S1x128 .f32) = V c main_v1 := by
  obtain ⟨-, -, -, -, e0, e1, -⟩ := idx_facts2 t
  funext y
  show V c main_v1 (((cfg2.win 2).blk t).view.emb y) = V c main_v1 y
  refine congrArg _ ?_
  funext a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The output block's column `q` is the array's column `q`. -/
theorem col2_3 (t : Fin cfg2.N) (p : Fin 400) (q : Fin 128) : (((cfg2.win 3).blk t).view.emb (ix2 p q)) 1 = q := by
  obtain ⟨-, -, -, -, -, -, -, e7⟩ := idx_facts2 t
  apply Fin.ext
  show win2_3.index t (1 : Fin 2) * 128 + 1 * q.val = q.val
  omega

/-- What point `t` writes back is block `t` of the log-softmax of the logits of the arrays as the region finds them. -/
theorem flushed2_eq (c : Dev nD) (t : Fin cfg2.N) :
    (dat2 (F := Ideal) V c).flushed 3 t = ((cfg2.win 3).blk t).view.read (Elt Ideal)
      (outJoint ninf (V c main_arg1) (V c main_v3) (vecOfRow (V c main_v1))) := by
  show (cfg2.win 3).cut (grid2.coords t) ((dat2 V c).after 3 t) = _
  rw [after2_3]
  unfold out2_3
  rw [View.canon_unit_zero zero_offsets]
  simp only [View.ld_unit_zero (S := S400x10000) zero_offsets, View.ld_unit_zero (S := S10000x128) zero_offsets, View.ld_unit_zero (S := S1x128) zero_offsets]
  funext y
  obtain ⟨p, q, rfl⟩ : ∃ (p : Fin 400) (q : Fin 128), y = ix2 p q := ⟨y 0, y 1, eq_ix2 y⟩
  show k2_pay1 (F := Ideal) (iblk2 V c 0 t) (iblk2 V c 1 t) (iblk2 V c 2 t) (ix2 p q)
    = logSoftmaxJoint ninf (logitsRow (rowOf (V c main_arg1) ((((cfg2.win 3).blk t).view.emb (ix2 p q)) 0)) (V c main_v3) (vecOfRow (V c main_v1)))
        ((((cfg2.win 3).blk t).view.emb (ix2 p q)) 1)
  rw [pay2_apply, blk2_0 V c t p q, blk2_1, blk2_2, col2_3]

/-- An index of the array is in point `t`'s block iff each coordinate is in the block's range on its axis. -/
theorem mem_blk2 (t : Fin cfg2.N) (i : S10000x128.Idx) :
    i ∈ ((cfg2.win 3).blk t).view.set ↔ ∀ a : Fin 2, win2_3.index t a * S400x128.size a ≤ (i a).val ∧ (i a).val < win2_3.index t a * S400x128.size a + S400x128.size a := by
  show i ∈ ((View.whole main_v4).slice (win2_3.rect t)).set ↔ _
  rw [View.set_slice_whole, Rect.mem_set_unit]
  exact Iff.rfl

/-- Row `r` of the array lies in the block of point `r / 400`. -/
theorem cover2 (i : S10000x128.Idx) : ∃ t : Fin cfg2.N, (cfg2.win 3).flush t = true ∧ i ∈ ((cfg2.win 3).blk t).view.set := by
  have hi0 : (i 0).val < 10000 := (i 0).isLt
  have hi1 : (i 1).val < 128 := (i 1).isLt
  obtain ⟨t, ht⟩ : ∃ t : Fin cfg2.N, t.val = (i 0).val / 400 := ⟨⟨(i 0).val / 400, by rw [show cfg2.N = 25 from N_2]; omega⟩, rfl⟩
  refine ⟨t, flush2_3 t, ?_⟩
  rw [mem_blk2]
  obtain ⟨-, -, -, -, -, -, e6, e7⟩ := idx_facts2 t
  intro a
  match a with
  | ⟨0, _⟩ => show win2_3.index t (0 : Fin 2) * 400 ≤ (i 0).val ∧ (i 0).val < win2_3.index t (0 : Fin 2) * 400 + 400; omega
  | ⟨1, _⟩ => show win2_3.index t (1 : Fin 2) * 128 ≤ (i 1).val ∧ (i 1).val < win2_3.index t (1 : Fin 2) * 128 + 128; omega

/-- The array after the third region: the row-wise log-softmax of the logits of the arrays the region was entered with. -/
theorem final2 (c : Dev nD) : (dat2 (F := Ideal) V c).arrAt 3 cfg2.N
    = outJoint ninf (V c main_arg1) (V c main_v3) (vecOfRow (V c main_v1)) :=
  (dat2 V c).arrAt_eq_of_cover 3 _ (fun t _ => flushed2_eq V c t) cover2

end Cert.KernelIdeal.Hand
end
-- ==== Proof.Chain.lean ====
/-
  The result array after the idealized kernel's run, as ONE function of the six argument arrays.

  The run leaves in the result buffer what the third region's write-backs leave (`Gen.W4`). Reading it back region by region:
  the third region's output is the log-softmax rows of `A·S₂ + b₂` of what IT finds in its input buffers; of those, the
  adjacency matrix is still the launch contents (no region writes an input), the bias is the launch bias reshaped to one row by
  the host, and S₂ is what the second region wrote, `relu(A·S₁ + b₁)·W₂` of what it found, where S₁ is what the first region
  wrote, `X·W₁`. Each "what a region finds" is one step back through the fold of the regions' write-backs.
-/
import proofs.«148314_g47416438948092_cont_8to1_c_129_2_alg».proof.Defs
import proofs.«148314_g47416438948092_cont_8to1_c_129_2_alg».proof.Proof.Gen.KernelIdeal.Frame
import proofs.«148314_g47416438948092_cont_8to1_c_129_2_alg».proof.Proof.Spec
import proofs.«148314_g47416438948092_cont_8to1_c_129_2_alg».proof.Proof.Payload
import proofs.«148314_g47416438948092_cont_8to1_c_129_2_alg».proof.Proof.Regions
import Idealize.ShloMosaic.Lib.Pipeline.Value
import Idealize.ShloMosaic.Lib.ValueIdx
import Idealize.ShloMosaic.Lib.ValueLayout
import Idealize.ShloMosaic.Lib.StableHlo.Run

noncomputable section
open Idealize.ShloMosaic Idealize.ShloMosaic.TcCoe Idealize.SL.Sem Idealize.ShloMosaic.ValueIdx Idealize.ShloMosaic.StableHlo
open Idealize.ShloMosaic.Pipeline (Dat)

namespace Cert.KernelIdeal.Hand
open Cert.KernelIdeal Cert.KernelIdeal.Gen Cert.GraphConv

variable (m : (ℓ : Loc nD τ sig) → Buf (Elt Ideal) ℓ) (ρ : Dev nD → PrngReg)

/-! ## The buffers the regions find: each read back to the launch memory -/

/-- The two reshapes before the first region write only the two reshaped biases: any other buffer is as launched. -/
theorem W1_of_ne (c : Dev nD) (b : Ref sig .tc) (h0 : b ≠ main_v0) (h1 : b ≠ main_v1) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))).trans rfl

/-- The first bias as the first reshape leaves it: the vector cast to one row. -/
theorem W1_b1 (c : Dev nD) : (W1 m ρ c (Proc.devRef .tc main_v0) : S1x128.Idx → EReal)
    = shapeCast S1x128 (m ((c : Thread nD τ).loc main_arg3)) shapeCasts_S128_S1x128 := by
  show StableHlo.after hostOps0 (W0 m ρ c) (Proc.devRef .tc main_v0) = _
  after_results
  rfl

/-- The second bias likewise. -/
theorem W1_b2 (c : Dev nD) : (W1 m ρ c (Proc.devRef .tc main_v1) : S1x128.Idx → EReal)
    = shapeCast S1x128 (m ((c : Thread nD τ).loc main_arg5)) shapeCasts_S128_S1x128 := by
  show StableHlo.after hostOps0 (W0 m ρ c) (Proc.devRef .tc main_v1) = _
  after_results
  rfl

/-- A vector cast to one row, read back as a vector, is the vector. -/
theorem vecOfRow_shapeCast (v : S128.Idx → EReal) : vecOfRow (shapeCast S1x128 v shapeCasts_S128_S1x128) = vecOf v := by
  funext h
  unfold vecOfRow vecOf
  exact shapeCast_a_1a_apply _ _ _ _

/-! ## The result array as one function of the six arguments -/

/-- What the third region finds in the adjacency matrix's buffer: the launch contents (no region writes an input). -/
theorem V3_adj (c : Dev nD) : V3 m ρ c main_arg1 = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = m ((c : Thread nD τ).loc main_arg1) := W1_of_ne m ρ c main_arg1 (by decide) (by decide)

/-- What the second region finds there: the same. -/
theorem V2_adj (c : Dev nD) : V2 m ρ c main_arg1 = m ((c : Thread nD τ).loc main_arg1) :=
  (W2_of_ne m ρ c main_arg1 (by decide)).trans (W1_of_ne m ρ c main_arg1 (by decide) (by decide))

/-- The second weight matrix as the second region finds it. -/
theorem V2_w2 (c : Dev nD) : V2 m ρ c main_arg4 = m ((c : Thread nD τ).loc main_arg4) :=
  (W2_of_ne m ρ c main_arg4 (by decide)).trans (W1_of_ne m ρ c main_arg4 (by decide) (by decide))

/-- The first bias, reshaped to one row, as the second region finds it. -/
theorem V2_b1 (c : Dev nD) : (V2 m ρ c main_v0 : S1x128.Idx → EReal)
    = shapeCast S1x128 (m ((c : Thread nD τ).loc main_arg3)) shapeCasts_S128_S1x128 :=
  (W2_of_ne m ρ c main_v0 (by decide)).trans (W1_b1 m ρ c)

/-- The second bias, reshaped to one row, as the third region finds it. -/
theorem V3_b2 (c : Dev nD) : (V3 m ρ c main_v1 : S1x128.Idx → EReal)
    = shapeCast S1x128 (m ((c : Thread nD τ).loc main_arg5)) shapeCasts_S128_S1x128 :=
  (W3_of_ne m ρ c main_v1 (by decide)).trans ((W2_of_ne m ρ c main_v1 (by decide)).trans (W1_b2 m ρ c))

/-- The first support matrix as the second region finds it: what the first region wrote, `X·W₁` of the launch contents. -/
theorem V2_s1 (c : Dev nD) : V2 m ρ c main_v2
    = support1 (m ((c : Thread nD τ).loc main_arg0)) (m ((c : Thread nD τ).loc main_arg2)) := by
  have e : V2 m ρ c main_v2 = (dat0 (V1 m ρ) c).arrAt 2 cfg0.N := W2_arr m ρ c 2
  rw [e, final0 (V1 m ρ) c]
  have e0 : V1 m ρ c main_arg0 = m ((c : Thread nD τ).loc main_arg0) := W1_of_ne m ρ c main_arg0 (by decide) (by decide)
  have e2 : V1 m ρ c main_arg2 = m ((c : Thread nD τ).loc main_arg2) := W1_of_ne m ρ c main_arg2 (by decide) (by decide)
  rw [e0, e2]

/-- The second support matrix as the third region finds it: what the second region wrote. -/
theorem V3_s2 (c : Dev nD) : V3 m ρ c main_v3
    = support2 (m ((c : Thread nD τ).loc main_arg1))
        (support1 (m ((c : Thread nD τ).loc main_arg0)) (m ((c : Thread nD τ).loc main_arg2)))
        (vecOf (m ((c : Thread nD τ).loc main_arg3))) (m ((c : Thread nD τ).loc main_arg4)) := by
  have e : V3 m ρ c main_v3 = (dat1 (V2 m ρ) c).arrAt 4 cfg1.N := W3_arr m ρ c 4
  rw [e, final1 (V2 m ρ) c, V2_adj m ρ c, V2_s1 m ρ c, V2_w2 m ρ c, V2_b1 m ρ c, vecOfRow_shapeCast]

/-- THE RESULT ARRAY after the run: the log-softmax rows of `A·S₂ + b₂`, all of it a function of the launch contents. -/
theorem out_eq (c : Dev nD) : W4 m ρ c (Proc.devRef .tc main_v4)
    = outJoint ninf (m ((c : Thread nD τ).loc main_arg1))
        (support2 (m ((c : Thread nD τ).loc main_arg1))
          (support1 (m ((c : Thread nD τ).loc main_arg0)) (m ((c : Thread nD τ).loc main_arg2)))
          (vecOf (m ((c : Thread nD τ).loc main_arg3))) (m ((c : Thread nD τ).loc main_arg4)))
        (vecOf (m ((c : Thread nD τ).loc main_arg5))) := by
  have e : W4 m ρ c (Proc.devRef .tc main_v4) = (dat2 (V3 m ρ) c).arrAt 3 cfg2.N := W4_arr m ρ c 3
  rw [e, final2 (V3 m ρ) c, V3_adj m ρ c, V3_s2 m ρ c, V3_b2 m ρ c, vecOfRow_shapeCast]

end Cert.KernelIdeal.Hand
end
-- ==== Proof.SpecLaws.lean ====
/-
  Laws of the graph-convolution stages on the extended reals.

  1. Real-valuedness propagates: sums, products and maxima of real numbers are real, so every stage of the network
     (X·W₁, relu(A·S₁ + b₁)·W₂, A·S₂ + b₂) is real-valued when the six inputs are; so is the maximum of a row of
     logits, the fold of `max` from −∞ over its 128 entries.
  2. For a real-valued row the two spellings of log-softmax are one number: with `a = y o` and `b = M` real and ANY
     extended real `L` for the log-sum,  a − (b + L) = (a − b) − L  (if `L` is real this is arithmetic in ℝ; at
     `L = ±∞` both sides are the opposite infinity). The joining of the maximum with the start value once more and the
     sum started at 0 change nothing: ι ≤ fold max ι y, and 0 + s = s.
-/
import proofs.«148314_g47416438948092_cont_8to1_c_129_2_alg».proof.Proof.Spec
import Idealize.ShloMosaic.PureOps.Ideal.Laws
import Mathlib.Data.EReal.Operations
import Mathlib.Data.Finset.Fold

noncomputable section

namespace Cert.GraphConv

open Idealize.ShloMosaic Idealize.ShloMosaic.ValueIdx

/-- An extended real that is a real number. -/
def IsReal (x : EReal) : Prop := ∃ r : ℝ, (r : EReal) = x

theorem IsReal.zero : IsReal 0 := ⟨0, EReal.coe_zero⟩

theorem IsReal.add {x y : EReal} (hx : IsReal x) (hy : IsReal y) : IsReal (x + y) := by
  obtain ⟨a, rfl⟩ := hx; obtain ⟨b, rfl⟩ := hy; exact ⟨a + b, EReal.coe_add a b⟩

theorem IsReal.mul {x y : EReal} (hx : IsReal x) (hy : IsReal y) : IsReal (x * y) := by
  obtain ⟨a, rfl⟩ := hx; obtain ⟨b, rfl⟩ := hy; exact ⟨a * b, EReal.coe_mul a b⟩

theorem IsReal.max {x y : EReal} (hx : IsReal x) (hy : IsReal y) : IsReal (max x y) := by
  rcases le_total x y with h | h
  · rw [max_eq_right h]; exact hy
  · rw [max_eq_left h]; exact hx

theorem IsReal.sum {ι : Type} (s : Finset ι) (f : ι → EReal) (h : ∀ i ∈ s, IsReal (f i)) : IsReal (∑ i ∈ s, f i) :=
  Finset.sum_induction f IsReal (fun _ _ => IsReal.add) IsReal.zero h

theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

theorem isReal_of_ne {x : EReal} (h1 : x ≠ ⊤) (h2 : x ≠ ⊥) : IsReal x := ⟨x.toReal, EReal.coe_toReal h1 h2⟩

/-! ## The stages are real-valued on real inputs -/

theorem isReal_dotRow {K C : Nat} (row : Fin K → EReal) (b : (⟨2, ![K, C]⟩ : Shape).Idx → EReal) (c : Fin C)
    (hr : ∀ k, IsReal (row k)) (hb : ∀ i, IsReal (b i)) : IsReal (dotRow row b c) :=
  IsReal.sum _ _ fun k _ => (hr k).mul (hb _)

theorem isReal_support1 (x : (⟨2, ![10000, 128]⟩ : Shape).Idx → EReal) (w1 : (⟨2, ![128, 128]⟩ : Shape).Idx → EReal)
    (hx : ∀ i, IsReal (x i)) (hw : ∀ i, IsReal (w1 i)) (i : (⟨2, ![10000, 128]⟩ : Shape).Idx) : IsReal (support1 x w1 i) :=
  isReal_dotRow _ _ _ (fun _ => hx _) hw

theorem isReal_hiddenRow (row : Fin 10000 → EReal) (s1 : (⟨2, ![10000, 128]⟩ : Shape).Idx → EReal) (b1 : Fin 128 → EReal) (h : Fin 128)
    (hr : ∀ k, IsReal (row k)) (hs : ∀ i, IsReal (s1 i)) (hb : ∀ j, IsReal (b1 j)) : IsReal (hiddenRow row s1 b1 h) :=
  ((isReal_dotRow _ _ _ hr hs).add (hb h)).max IsReal.zero

theorem isReal_support2 (a : (⟨2, ![10000, 10000]⟩ : Shape).Idx → EReal) (s1 : (⟨2, ![10000, 128]⟩ : Shape).Idx → EReal)
    (b1 : Fin 128 → EReal) (w2 : (⟨2, ![128, 128]⟩ : Shape).Idx → EReal)
    (ha : ∀ i, IsReal (a i)) (hs : ∀ i, IsReal (s1 i)) (hb : ∀ j, IsReal (b1 j)) (hw : ∀ i, IsReal (w2 i))
    (i : (⟨2, ![10000, 128]⟩ : Shape).Idx) : IsReal (support2 a s1 b1 w2 i) := by
  unfold support2 support2Row
  exact IsReal.sum _ _ fun h _ => (isReal_hiddenRow _ _ _ h (fun _ => ha _) hs hb).mul (hw _)

theorem isReal_logitsRow (row : Fin 10000 → EReal) (s2 : (⟨2, ![10000, 128]⟩ : Shape).Idx → EReal) (b2 : Fin 128 → EReal) (o : Fin 128)
    (hr : ∀ k, IsReal (row k)) (hs : ∀ i, IsReal (s2 i)) (hb : ∀ j, IsReal (b2 j)) : IsReal (logitsRow row s2 b2 o) :=
  (isReal_dotRow _ _ _ hr hs).add (hb o)

/-! ## The maximum of a real row -/

/-- The start value lies below the fold. -/
theorem le_rowMax (ι : EReal) (y : Fin 128 → EReal) : ι ≤ rowMax ι y := by
  unfold rowMax
  exact (Finset.le_fold_max _).mpr (Or.inl le_rfl)

/-- The maximum of a real-valued row, folded from a start value below `⊤`, is real: it is above the row's first entry
    and every candidate is below `⊤`. -/
theorem isReal_rowMax (ι : EReal) (hι : ι ≠ ⊤) (y : Fin 128 → EReal) (hy : ∀ j, IsReal (y j)) : IsReal (rowMax ι y) := by
  unfold rowMax
  refine isReal_of_ne (ne_of_lt ?_) (ne_of_gt ?_)
  · exact (Finset.fold_max_lt _).mpr ⟨lt_top_iff_ne_top.mpr hι, fun j _ => lt_top_iff_ne_top.mpr (hy j).ne_top⟩
  · exact lt_of_lt_of_le (bot_lt_iff_ne_bot.mpr (hy 0).ne_bot)
      ((Finset.le_fold_max _).mpr (Or.inr ⟨0, Finset.mem_univ _, le_rfl⟩))

/-! ## The two spellings of log-softmax -/

/-- For real `a`, `b` and any extended real `L`:  a − (b + L) = (a − b) − L. -/
theorem sub_add_eq_sub_sub_of_real (a b : ℝ) (L : EReal) : (a : EReal) - ((b : EReal) + L) = ((a : EReal) - (b : EReal)) - L := by
  induction L using EReal.rec with
  | bot => simp [← EReal.coe_sub]
  | coe l => rw [← EReal.coe_add, ← EReal.coe_sub, ← EReal.coe_sub, ← EReal.coe_sub]; congr 1; ring
  | top => simp [← EReal.coe_sub]

/-- On a real-valued row, subtracting the maximum first and the log-sum after is subtracting their sum at once. -/
theorem logSoftmaxShifted_eq_joint (ι : EReal) (hι : ι ≠ ⊤) (y : Fin 128 → EReal) (hy : ∀ j, IsReal (y j)) (o : Fin 128) :
    logSoftmaxShifted ι 0 y o = logSoftmaxJoint ι y o := by
  unfold logSoftmaxShifted logSoftmaxJoint
  rw [max_eq_right (le_rowMax ι y), zero_add]
  obtain ⟨a, ha⟩ := hy o
  obtain ⟨b, hb⟩ := isReal_rowMax ι hι y hy
  rw [← ha, ← hb]
  exact (sub_add_eq_sub_sub_of_real a b _).symm

/-- On real-valued inputs the network's output array is the same in both spellings: every row of logits is real. -/
theorem outShifted_eq_outJoint (ι : EReal) (hι : ι ≠ ⊤) (a : (⟨2, ![10000, 10000]⟩ : Shape).Idx → EReal)
    (s2 : (⟨2, ![10000, 128]⟩ : Shape).Idx → EReal) (b2 : Fin 128 → EReal)
    (ha : ∀ i, IsReal (a i)) (hs : ∀ i, IsReal (s2 i)) (hb : ∀ j, IsReal (b2 j)) :
    outShifted ι 0 a s2 b2 = outJoint ι a s2 b2 :=
  funext fun i => logSoftmaxShifted_eq_joint ι hι _ (fun j => isReal_logitsRow _ _ _ j (fun _ => ha _) hs hb) (i 1)

/-- The f32 word of −∞ denotes `⊥`; in particular it is not `⊤`. -/
theorem ofBits_neg_inf : Ideal.ofBits .f32 0xFF800000#32 = ⊥ := by
  simp [Ideal.ofBits, Ideal.ieee]

end Cert.GraphConv

end
-- ==== Proof.Finite.lean ====
/-
  From the precondition to real numbers.

  The precondition says, of each of the six argument arrays, that every entry's absolute value compares below +∞, the six
  statements joined by `and` into one bit. On the extended reals `|x| < +∞` (with `|x| = max x (−x)`) excludes both
  infinities, so every entry of every argument is a real number — which is what the two spellings of log-softmax need
  in order to agree.
-/
import proofs.«148314_g47416438948092_cont_8to1_c_129_2_alg».proof.Defs
import proofs.«148314_g47416438948092_cont_8to1_c_129_2_alg».proof.Proof.SpecLaws
import Idealize.ShloMosaic.Lib.ReduceAll
import Idealize.ShloMosaic.Lib.Affine
import Idealize.ShloMosaic.Lib.ValueIdx

noncomputable section

open Idealize.ShloMosaic Idealize.ShloMosaic.ValueIdx

namespace Cert.Pre_finite_inputs.Hand

open Cert.Pre_finite_inputs Cert.GraphConv

/-- A rank-0 shape has one index. -/
instance : Subsingleton S_.Idx := ⟨fun a b => funext fun d => d.elim0⟩

/-- The f32 word of +∞ denotes `⊤`. -/
theorem ofBits_pos_inf : Ideal.ofBits .f32 0x7F800000#32 = ⊤ := by
  simp [Ideal.ofBits, Ideal.ieee]

/-- An extended real whose absolute value compares below +∞ is a real number: `max x (−x) < ⊤` excludes `x = ⊤`
    directly and `x = ⊥` through `−⊥ = ⊤`. -/
theorem isReal_of_abs_lt (x : EReal)
    (h : FloatOps.cmpf (F := Ideal) (φ := .f32) .olt (FloatOps.hostAbsf (F := Ideal) (φ := .f32) x) (Ideal.ofBits .f32 0x7F800000#32) = 1#1) :
    IsReal x := by
  rw [ofBits_pos_inf] at h
  have h' : max x (-x) < ⊤ := by
    by_contra hc
    have : FloatOps.cmpf (F := Ideal) (φ := .f32) .olt (FloatOps.hostAbsf (F := Ideal) (φ := .f32) x) ⊤ = 0#1 := by
      show BitVec.ofBool (decide (max x (-x) < ⊤)) = 0#1
      simp [hc]
    rw [this] at h
    exact absurd h (by decide)
  refine isReal_of_ne (ne_of_lt (lt_of_le_of_lt (le_max_left _ _) h')) ?_
  intro hb
  rw [hb] at h'
  simp at h'

variable [Facts]

/-- Under the precondition every entry of every argument array is a real number. -/
theorem real_of_pre (a0 : FVec Ideal S10000x128 .f32) (a1 : FVec Ideal S10000x10000 .f32) (a2 : FVec Ideal S128x128 .f32)
    (a3 : FVec Ideal S128 .f32) (a4 : FVec Ideal S128x128 .f32) (a5 : FVec Ideal S128 .f32)
    (h : fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) := by
  have h0 := congrFun h ix0
  dsimp only [fn, fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨fun i => isReal_of_abs_lt (a0 i) (Host.reduce_andi_all _ _ _ _ ix0 h0' i),
    fun i => isReal_of_abs_lt (a1 i) (Host.reduce_andi_all _ _ _ _ ix0 h1 i),
    fun i => isReal_of_abs_lt (a2 i) (Host.reduce_andi_all _ _ _ _ ix0 h2 i),
    fun i => isReal_of_abs_lt (a3 i) (Host.reduce_andi_all _ _ _ _ ix0 h3 i),
    fun i => isReal_of_abs_lt (a4 i) (Host.reduce_andi_all _ _ _ _ ix0 h4 i),
    fun i => isReal_of_abs_lt (a5 i) (Host.reduce_andi_all _ _ _ _ ix0 h5 i)⟩

end Cert.Pre_finite_inputs.Hand

end
-- ==== Proof.lean ====
/-
  The certificate of a two-layer graph convolution with a row-wise log-softmax, computed by three chained kernel regions,
  against its jnp reference:   out = log_softmax(A · (relu(A · (X·W₁) + b₁) · W₂) + b₂)   over 10000 nodes and 128 features.

  * The three frames. The kernel's two (as printed, and idealized) are the generated frame certificates of its three
    regions; the reference's is its run (Proof/RefRun.lean) with the result forgotten.
  * `preserves`: the ideal pass rewrote nothing, so the statement is `True`.
  * `algebraic`. At the ideal instance the kernel's result array, read back through the three regions (Proof/Chain.lean over
    Proof/Regions.lean and Proof/Payload.lean), and the reference's (Proof/RefValue.lean, Proof/RefSoftmax.lean) are the SAME
    network function of the six arguments up to the last step: the kernel subtracts `M + log Σ exp(y − M)` from a logit at
    once, jax subtracts the row maximum `M` first and the log-sum after. On the extended reals those differ at the
    infinities; under the precondition every input is a real number (Proof/Finite.lean), hence every logit and every row
    maximum, and there the two agree (Proof/SpecLaws.lean).
-/
import proofs.«148314_g47416438948092_cont_8to1_c_129_2_alg».proof.Defs
import proofs.«148314_g47416438948092_cont_8to1_c_129_2_alg».proof.Proof.Gen.Kernel
import proofs.«148314_g47416438948092_cont_8to1_c_129_2_alg».proof.Proof.Gen.Kernel.Frame
import proofs.«148314_g47416438948092_cont_8to1_c_129_2_alg».proof.Proof.Gen.KernelIdeal
import proofs.«148314_g47416438948092_cont_8to1_c_129_2_alg».proof.Proof.Gen.KernelIdeal.Frame
import proofs.«148314_g47416438948092_cont_8to1_c_129_2_alg».proof.Proof.Gen.ReferenceIdeal
import proofs.«148314_g47416438948092_cont_8to1_c_129_2_alg».proof.Proof.Gen.Pre_finite_inputs
import proofs.«148314_g47416438948092_cont_8to1_c_129_2_alg».proof.Proof.RefRun
import proofs.«148314_g47416438948092_cont_8to1_c_129_2_alg».proof.Proof.RefRead
import proofs.«148314_g47416438948092_cont_8to1_c_129_2_alg».proof.Proof.RefValue
import proofs.«148314_g47416438948092_cont_8to1_c_129_2_alg».proof.Proof.RefSoftmax
import proofs.«148314_g47416438948092_cont_8to1_c_129_2_alg».proof.Proof.KernelRun
import proofs.«148314_g47416438948092_cont_8to1_c_129_2_alg».proof.Proof.Chain
import proofs.«148314_g47416438948092_cont_8to1_c_129_2_alg».proof.Proof.SpecLaws
import proofs.«148314_g47416438948092_cont_8to1_c_129_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.GraphConv

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The network's output, in the kernel's spelling, of the idealized kernel's six argument arrays on core `c`. -/
abbrev result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v4) :=
  outJoint Cert.KernelIdeal.Hand.ninf (m ((c.tc : Thread Cert.KernelIdeal.nD Cert.KernelIdeal.τ).loc Cert.KernelIdeal.main_arg1))
    (support2 (m ((c.tc : Thread Cert.KernelIdeal.nD Cert.KernelIdeal.τ).loc Cert.KernelIdeal.main_arg1))
      (support1 (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (vecOf (m ((c.tc : Thread Cert.KernelIdeal.nD Cert.KernelIdeal.τ).loc Cert.KernelIdeal.main_arg3)))
      (m ((c.tc : Thread Cert.KernelIdeal.nD Cert.KernelIdeal.τ).loc Cert.KernelIdeal.main_arg4)))
    (vecOf (m ((c.tc : Thread Cert.KernelIdeal.nD Cert.KernelIdeal.τ).loc Cert.KernelIdeal.main_arg5)))

/-- Both idealized programs end with the network's output of the arguments: the kernel's result array is it by the chain
    through the three regions, the reference's is it in jax's spelling of log-softmax, equal on the real-valued logits the
    precondition gives. -/
theorem algebraic : Cert.algebraic_KernelIdeal_ReferenceIdeal := by
  intro m ρ m' ρ' hpre hagree
  refine ⟨fun c => result m c, ?_, ?_⟩
  · exact (θ_run Cert.KernelIdeal.defs _ _).mono
      (fun _ h c => ⟨(h c).1.trans (Cert.KernelIdeal.Hand.out_eq m ρ c), (h c).2⟩)
      (Cert.KernelIdeal.Hand.run_out (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5⟩ := hagree c
    obtain ⟨r0, r1, r2, r3, r4, r5⟩ := Cert.Pre_finite_inputs.Hand.real_of_pre _ _ _ _ _ _ (hpre c)
    rw [Cert.ReferenceIdeal.ReadP.val_main_v11_eq, Cert.ReferenceIdeal.RefValue.v11_eq, e0, e1, e2, e3, e4, e5]
    refine outShifted_eq_outJoint _ ?_ _ _ _ r1 ?_ (fun j => r5 _)
    · rw [show Cert.ReferenceIdeal.RefValue.ninf = (⊥ : EReal) from ofBits_neg_inf]; exact bot_ne_top
    · exact isReal_support2 _ _ _ _ r1 (isReal_support1 _ _ r0 r2) (fun j => r3 _) r4

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
